-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S1024x512 : Shape := ⟨2, ![1024, 512]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S1x8192, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let arg0 : BitVec 32 := BitVec.ofNat 32 (i 0).val
  let c1024_i32_0 : BitVec 32 := 1024#32
  let v2 : BitVec 32 := Scalar.muli arg0 c1024_i32_0
  v2
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v6 : Index := Scalar.indexCast v1
  let c0_2 : Index := 0#32
  ![v6.toNat, 0]
def k0_off2 (i : grid0.Coords) : Fin 2 → Nat :=
  let c0_3 : Index := 0#32
  let arg0 : BitVec 32 := BitVec.ofNat 32 (i 0).val
  let c1024_i32_0 : BitVec 32 := 1024#32
  let v2 : BitVec 32 := Scalar.muli arg0 c1024_i32_0
  let v3 : BitVec 32 := v2
  let v10 : Index := Scalar.indexCast v3
  ![0, v10.toNat]
def k0_off3 (i : grid0.Coords) : Fin 2 → Nat :=
  let c0_4 : Index := 0#32
  let arg1 : BitVec 32 := BitVec.ofNat 32 (i 1).val
  let c1024_i32 : BitVec 32 := 1024#32
  let v0 : BitVec 32 := Scalar.muli arg1 c1024_i32
  let v1 : BitVec 32 := v0
  let v13 : Index := Scalar.indexCast v1
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  reducesTo_S8192x512_S8192_d1 : S8192x512.ReducesTo [1] S8192
  h_S_ : 0 < S_.numel
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S1x1024 : 0 < S1x1024.numel
  shapeCasts_S1x1024_S1x1024 : S1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x512.size a ≤ S8192x512.size a
  k0_off2_inb : ∀ i : grid0.Coords, ∀ a, (k0_off2 i) a + S1x1024.size a ≤ S1x8192.size a
  k0_off3_inb : ∀ i : grid0.Coords, ∀ a, (k0_off3 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8192, .f32⟩
  | .hbm, ⟨2, _⟩ => ⟨S8192x8192, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S8192x512_S512x8192_1_0 : S8192x512.Transposes [1, 0] S512x8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.FrameK.lean ====
/-
  The frame of the cosine-distance kernel: every weakly fair execution of the program terminates without a
  fault and leaves the argument array as it was, and the result array is named block by block.

  The program first computes, on the host, a copy of the argument (the change of float format), its squared
  entries, the row sums of those, their square roots, and that vector as one row of 8192 entries.  The one
  kernel region runs on an 8 x 8 grid.  At point (i, j) it is handed block i of 1024 rows of the copy, the
  WHOLE copy a second time, and the whole row of norms; it stores a block of 1024 x 1024 results, which is
  written back to block (i, j) of the result array.  The copy is therefore read through two windows at once:
  each window holds one half of the right to read it, and the two halves are dealt at the region's entry
  from the whole and never written through.

  What the body leaves in the output block is one pure function of the three input blocks and of the point
  (the point fixes which 1024 rows of the resident copy and which two stretches of 1024 norms are read).
-/
import proofs.«175760_j15015205667291_2_alg».proof.Proof.Gen.Kernel.Launch
import proofs.«175760_j15015205667291_2_alg».proof.Proof.Gen.Kernel.Skeleton
import proofs.«175760_j15015205667291_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every buffer of core `c` after the six host operations that precede the region. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

/-- The whole row block, the 1024 rows of the resident copy the point selects, the two stretches of 1024
    norms it selects, and the whole output block. -/
abbrev rA : Rect S1024x512 := Rect.unit (s := S1024x512) ![0, 0] S1024x512.size inb_S1024x512_S1024x512_0_0
abbrev rB (i : grid0.Coords) : Rect S8192x512 := Rect.unit (s := S8192x512) (k0_off1 i) S1024x512.size (k0_off1_inb i)
abbrev rNa (i : grid0.Coords) : Rect S1x8192 := Rect.unit (s := S1x8192) (k0_off2 i) S1x1024.size (k0_off2_inb i)
abbrev rNb (i : grid0.Coords) : Rect S1x8192 := Rect.unit (s := S1x8192) (k0_off3 i) S1x1024.size (k0_off3_inb i)
abbrev rO : Rect S1024x1024 := Rect.unit (s := S1024x1024) ![0, 0] S1024x1024.size inb_S1024x1024_S1024x1024_0_0

/-- What the body leaves in the output block at grid coordinates `i`: its one store, over the whole block. -/
def outBlock (i : grid0.Coords) (x0 : Vec F S1024x512 .bf16) (x1 : Vec F S8192x512 .bf16) (x2 : Vec F S1x8192 .f32) : Vec F S1024x1024 .f32 :=
  View.canon [⟨rO, k0_pay1 (View.ld x0 rA) (View.ld x1 (rB i)) (View.ld x2 (rNa i)) (View.ld x2 (rNb i))⟩]

theorem coverO (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- On whole staging buffers, the three inputs at known contents and the output at anything, the body runs to
    the end, leaves the inputs as they were and the output at `outBlock`. -/
theorem sound_kernel (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1x8192 .f32) (harg4 : arg4.IsWhole) (arg5 : Memref sig .tc .vmem S1024x1024 .f32) (harg5 : arg5.IsWhole)
    (x0 : Vec F S1024x512 .bf16) (x1 : Vec F S8192x512 .bf16) (x2 : Vec F S1x8192 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock i x0 x1 x2)) -∗ K ⟨⟩))
      ⊢ wp frame (wpE (defs₀ (F := F)) Variants.none c none) E (cc0__cosine_kernel i arg2 harg2 arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The two windows on the format-changed copy each hold one half of the right to read it; the norms' window
    and the result's hold theirs whole. -/
def shareOf : Fin cfg0.W → PosShare TreeShare
  | ⟨0, _⟩ => fullShare.left
  | ⟨1, _⟩ => fullShare.right
  | ⟨2, _⟩ => fullShare
  | ⟨3, _⟩ => fullShare

/-- The arrays as the region finds them; after the body at point `t` each input's buffer still at its block
    and the output's at `outBlock` of the three input blocks; nothing carried between points beyond the
    core's scoped buffers that are no staging buffer (there are none); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (grid0.coords t) (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- Three distinct arrays stand behind the four windows. -/
theorem arr_image : (Finset.univ.image (Pipeline.arrRef spec0) : Finset (Ref sig .tc)) = [main_v0, main_v4, main_v5].toFinset := by decide

theorem arrBufs_eq (c : Dev nD) : (Pipeline.arrBufs spec0 c (V m c) : sProp 𝕄)
    = iprop((((c : Thread nD τ).loc main_v0) ↦{fullShare} V m c main_v0) ∗ (((c : Thread nD τ).loc main_v4) ↦{fullShare} V m c main_v4)
        ∗ (((c : Thread nD τ).loc main_v5) ↦{fullShare} V m c main_v5)) :=
  bigSep_eq_bigSepL_of_eq [main_v0, main_v4, main_v5] arr_image (by decide) _

/-- At the region's entry the format-changed copy, held whole, is dealt in two halves to the two windows
    that read it; the norms and the result go whole to theirs. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ]
  iintro ⟨H0, H4, H5⟩
  ihave H0' := (pointsTo_share (PosShare.mem_left_op_right fullShare)).1 $$ H0
  icases H0' with ⟨Ha, Hb⟩
  isplitl [Ha]; · iexact Ha
  isplitl [Hb]; · iexact Hb
  isplitl [H4]; · iexact H4
  iexact H5

theorem Phi_eq (c : Dev nD) (t : Fin (cfg0.N + 1)) : (dats m 0 c).Φ t = Pipeline.scopedRest spec0 c := rfl

set_option backward.isDefEq.respectTransparency.types false in
/-- Every weakly fair execution of the program terminates without a fault; in the final state every array of
    the region holds what the write-backs of the output blocks make of its entry contents, and every other
    unscoped buffer what it held at the region's entry. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as it was launched.  No window stages it and no host operation writes
    it, so it is among the buffers that pass the region by. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.Kernel.Hand

end
-- ==== Proof.FrameKI.lean ====
/-
  The frame of the cosine-distance kernel: every weakly fair execution of the program terminates without a
  fault and leaves the argument array as it was, and the result array is named block by block.

  The program first computes, on the host, a copy of the argument (the change of float format), its squared
  entries, the row sums of those, their square roots, and that vector as one row of 8192 entries.  The one
  kernel region runs on an 8 x 8 grid.  At point (i, j) it is handed block i of 1024 rows of the copy, the
  WHOLE copy a second time, and the whole row of norms; it stores a block of 1024 x 1024 results, which is
  written back to block (i, j) of the result array.  The copy is therefore read through two windows at once:
  each window holds one half of the right to read it, and the two halves are dealt at the region's entry
  from the whole and never written through.

  What the body leaves in the output block is one pure function of the three input blocks and of the point
  (the point fixes which 1024 rows of the resident copy and which two stretches of 1024 norms are read).
-/
import proofs.«175760_j15015205667291_2_alg».proof.Proof.Gen.KernelIdeal.Launch
import proofs.«175760_j15015205667291_2_alg».proof.Proof.Gen.KernelIdeal.Skeleton
import proofs.«175760_j15015205667291_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every buffer of core `c` after the six host operations that precede the region. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

/-- The whole row block, the 1024 rows of the resident copy the point selects, the two stretches of 1024
    norms it selects, and the whole output block. -/
abbrev rA : Rect S1024x512 := Rect.unit (s := S1024x512) ![0, 0] S1024x512.size inb_S1024x512_S1024x512_0_0
abbrev rB (i : grid0.Coords) : Rect S8192x512 := Rect.unit (s := S8192x512) (k0_off1 i) S1024x512.size (k0_off1_inb i)
abbrev rNa (i : grid0.Coords) : Rect S1x8192 := Rect.unit (s := S1x8192) (k0_off2 i) S1x1024.size (k0_off2_inb i)
abbrev rNb (i : grid0.Coords) : Rect S1x8192 := Rect.unit (s := S1x8192) (k0_off3 i) S1x1024.size (k0_off3_inb i)
abbrev rO : Rect S1024x1024 := Rect.unit (s := S1024x1024) ![0, 0] S1024x1024.size inb_S1024x1024_S1024x1024_0_0

/-- What the body leaves in the output block at grid coordinates `i`: its one store, over the whole block. -/
def outBlock (i : grid0.Coords) (x0 : Vec F S1024x512 .bf16) (x1 : Vec F S8192x512 .bf16) (x2 : Vec F S1x8192 .f32) : Vec F S1024x1024 .f32 :=
  View.canon [⟨rO, k0_pay1 (View.ld x0 rA) (View.ld x1 (rB i)) (View.ld x2 (rNa i)) (View.ld x2 (rNb i))⟩]

theorem coverO (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- On whole staging buffers, the three inputs at known contents and the output at anything, the body runs to
    the end, leaves the inputs as they were and the output at `outBlock`. -/
theorem sound_kernel (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1x8192 .f32) (harg4 : arg4.IsWhole) (arg5 : Memref sig .tc .vmem S1024x1024 .f32) (harg5 : arg5.IsWhole)
    (x0 : Vec F S1024x512 .bf16) (x1 : Vec F S8192x512 .bf16) (x2 : Vec F S1x8192 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock i x0 x1 x2)) -∗ K ⟨⟩))
      ⊢ wp frame (wpE (defs₀ (F := F)) Variants.none c none) E (cc0__cosine_kernel i arg2 harg2 arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The two windows on the format-changed copy each hold one half of the right to read it; the norms' window
    and the result's hold theirs whole. -/
def shareOf : Fin cfg0.W → PosShare TreeShare
  | ⟨0, _⟩ => fullShare.left
  | ⟨1, _⟩ => fullShare.right
  | ⟨2, _⟩ => fullShare
  | ⟨3, _⟩ => fullShare

/-- The arrays as the region finds them; after the body at point `t` each input's buffer still at its block
    and the output's at `outBlock` of the three input blocks; nothing carried between points beyond the
    core's scoped buffers that are no staging buffer (there are none); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (grid0.coords t) (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- Three distinct arrays stand behind the four windows. -/
theorem arr_image : (Finset.univ.image (Pipeline.arrRef spec0) : Finset (Ref sig .tc)) = [main_v0, main_v4, main_v5].toFinset := by decide

theorem arrBufs_eq (c : Dev nD) : (Pipeline.arrBufs spec0 c (V m c) : sProp 𝕄)
    = iprop((((c : Thread nD τ).loc main_v0) ↦{fullShare} V m c main_v0) ∗ (((c : Thread nD τ).loc main_v4) ↦{fullShare} V m c main_v4)
        ∗ (((c : Thread nD τ).loc main_v5) ↦{fullShare} V m c main_v5)) :=
  bigSep_eq_bigSepL_of_eq [main_v0, main_v4, main_v5] arr_image (by decide) _

/-- At the region's entry the format-changed copy, held whole, is dealt in two halves to the two windows
    that read it; the norms and the result go whole to theirs. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ]
  iintro ⟨H0, H4, H5⟩
  ihave H0' := (pointsTo_share (PosShare.mem_left_op_right fullShare)).1 $$ H0
  icases H0' with ⟨Ha, Hb⟩
  isplitl [Ha]; · iexact Ha
  isplitl [Hb]; · iexact Hb
  isplitl [H4]; · iexact H4
  iexact H5

theorem Phi_eq (c : Dev nD) (t : Fin (cfg0.N + 1)) : (dats m 0 c).Φ t = Pipeline.scopedRest spec0 c := rfl

set_option backward.isDefEq.respectTransparency.types false in
/-- Every weakly fair execution of the program terminates without a fault; in the final state every array of
    the region holds what the write-backs of the output blocks make of its entry contents, and every other
    unscoped buffer what it held at the region's entry. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as it was launched.  No window stages it and no host operation writes
    it, so it is among the buffers that pass the region by. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.KernelIdeal.Hand

end
-- ==== Proof.Spec.lean ====
/-
  The pairwise cosine distance of the rows of a matrix, as one function on the extended reals.

  For a matrix x of 8192 rows and 512 columns the entry (r, c) of the result is

      1 - (x_r . x_c) / max (|x_r| * |x_c|, eps),

  where x_r . x_c is the sum over the 512 columns of the products of the two rows' entries, |x_r| is the
  square root of (zero plus) the sum of the squares of row r, and the constants one, zero and eps are the
  values of three binary patterns, never evaluated: both programs spell the same three patterns.
-/
import Idealize.ShloMosaic.PureOps.Ideal
import Idealize.ShloMosaic.Lib.ValueIdx

noncomputable section

namespace Cert.CosineDistance

open Idealize.ShloMosaic Idealize.ShloMosaic.ValueIdx

abbrev Rows : Shape := ⟨2, ![8192, 512]⟩
abbrev Pairs : Shape := ⟨2, ![8192, 8192]⟩

/-- The inner product of rows `r` and `c`. -/
def dotRows (x : Rows.Idx → EReal) (r c : Fin 8192) : EReal := ∑ k : Fin 512, x (ix2 r k) * x (ix2 c k)

/-- The Euclidean norm of row `r`: the square root of the sum of its squares, summed onto the zero pattern. -/
def rowNorm (x : Rows.Idx → EReal) (r : Fin 8192) : EReal :=
  Ideal.sqrt (Ideal.ofBits .f32 0x00000000#32 + ∑ k : Fin 512, x (ix2 r k) * x (ix2 r k))

/-- One minus the quotient of an inner product by the larger of a product of norms and the small constant. -/
def distOf (d n₁ n₂ : EReal) : EReal :=
  Ideal.ofBits .f32 0x3F800000#32 - Ideal.div d (max (n₁ * n₂) (Ideal.ofBits .f32 0x322BCC77#32))

/-- The cosine distance of rows `i 0` and `i 1`. -/
def cosDist (x : Rows.Idx → EReal) : Pairs.Idx → EReal :=
  fun i => distOf (dotRows x (i 0) (i 1)) (rowNorm x (i 0)) (rowNorm x (i 1))

theorem cosDist_ix2 (x : Rows.Idx → EReal) (r c : Fin 8192) :
    cosDist x (ix2 r c) = distOf (dotRows x r c) (rowNorm x r) (rowNorm x c) := rfl

end Cert.CosineDistance

end
-- ==== Proof.Payload.lean ====
/-
  The body's arithmetic at one entry of the output block.

  From a block A of 1024 rows, a block B of 1024 rows and two stretches a, b of 1024 norms the body computes,
  at entry (p, q): the product of A and the transpose of B into a zero accumulator, which at the exact
  instance is the sum over the 512 columns of A(p, k) * B(q, k); the column of a's entries broadcast along
  the rows times the row of b's entries broadcast along the columns, which at (p, q) is a(p) * b(q); the
  larger of that and the small constant; the quotient; and one minus it.
-/
import proofs.«175760_j15015205667291_2_alg».proof.Proof.Gen.KernelIdeal.Skeleton
import proofs.«175760_j15015205667291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.CosineDistance

variable {α : Type}

/-- A column of `a` entries broadcast along the rows reads, at (p, q), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The operand indices of the block product at output entry `j` and contraction index `k`, coordinate by
    coordinate: (j 0, k) on the left and (j 1, k) on the right (both operands are contracted along their columns). -/
theorem lhs_row (j : S1024x1024.Idx) (k : dot_S1024x512_S1024x512_S1024x1024_1_1_0_0_n_n.contr.Idx) : (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_col (j : S1024x1024.Idx) (k : dot_S1024x512_S1024x512_S1024x1024_1_1_0_0_n_n.contr.Idx) : (dot_S1024x512_S1024x512_S1024x1024_1_1_0_0_n_n.lhsIdx j k 1).val = (k ⟨0, by decide⟩).val :=
  dot_S1024x512_S1024x512_S1024x1024_1_1_0_0_n_n.lhsIdx_val_of_single rfl j k
theorem rhs_row (j : S1024x1024.Idx) (k : dot_S1024x512_S1024x512_S1024x1024_1_1_0_0_n_n.contr.Idx) : (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_col (j : S1024x1024.Idx) (k : dot_S1024x512_S1024x512_S1024x1024_1_1_0_0_n_n.contr.Idx) : (dot_S1024x512_S1024x512_S1024x1024_1_1_0_0_n_n.rhsIdx j k 1).val = (k ⟨0, by decide⟩).val :=
  dot_S1024x512_S1024x512_S1024x1024_1_1_0_0_n_n.rhsIdx_val_of_single rfl j k

theorem lhs_at (p q : Fin 1024) (k : Fin 512) :
    dot_S1024x512_S1024x512_S1024x1024_1_1_0_0_n_n.lhsIdx (ix2 p q) ((contrEquiv1 dot_S1024x512_S1024x512_S1024x1024_1_1_0_0_n_n 512 rfl rfl).symm k) = ix2 p k := by
  have hk := contrEquiv1_symm_val dot_S1024x512_S1024x512_S1024x1024_1_1_0_0_n_n 512 rfl rfl k
  exact funext fun a => Fin.ext (by
    match a with
    | ⟨0, _⟩ => exact lhs_row _ _
    | ⟨1, _⟩ => exact (lhs_col _ _).trans hk)

theorem rhs_at (p q : Fin 1024) (k : Fin 512) :
    dot_S1024x512_S1024x512_S1024x1024_1_1_0_0_n_n.rhsIdx (ix2 p q) ((contrEquiv1 dot_S1024x512_S1024x512_S1024x1024_1_1_0_0_n_n 512 rfl rfl).symm k) = ix2 q k := by
  have hk := contrEquiv1_symm_val dot_S1024x512_S1024x512_S1024x1024_1_1_0_0_n_n 512 rfl rfl k
  exact funext fun a => Fin.ext (by
    match a with
    | ⟨0, _⟩ => exact rhs_row _ _
    | ⟨1, _⟩ => exact (rhs_col _ _).trans hk)

/-- The block product into the zero accumulator at entry (p, q). -/
theorem product_apply (A B : FVec Ideal S1024x512 .bf16) (p q : Fin 1024) :
    FloatOps.matmul dot_S1024x512_S1024x512_S1024x1024_1_1_0_0_n_n none A B (constant (F := Ideal) S1024x1024 .f32 0x00000000#32) (ix2 p q)
      = ∑ k : Fin 512, A (ix2 p k) * B (ix2 q k) := by
  rw [Ideal.matmul_constant_zero_apply, ← Equiv.sum_comp (contrEquiv1 dot_S1024x512_S1024x512_S1024x1024_1_1_0_0_n_n 512 rfl rfl).symm]
  refine Finset.sum_congr rfl fun k _ => ?_
  rw [lhs_at, rhs_at]

/-- The body's stored value at entry (p, q). -/
theorem pay_apply (A B : FVec Ideal S1024x512 .bf16) (na nb : FVec Ideal S1x1024 .f32) (p q : Fin 1024) :
    k0_pay1 (F := Ideal) A B na nb (ix2 p q)
      = distOf (∑ k : Fin 512, A (ix2 p k) * B (ix2 q k)) (na (ix2 (0 : Fin 1) p)) (nb (ix2 (0 : Fin 1) q)) := by
  unfold k0_pay1 distOf
  dsimp only
  rw [subf_apply, divf_apply, maximumf_apply, mulf_apply, broadcast_apply, broadcast_apply]
  rw [shapeCast_self, shapeCast_self, shapeCast_self, shapeCast_self]
  rw [matmul, product_apply, broadcastTo_a1_ab_apply, transpose_ix2_apply, broadcastTo_1b_ab_apply]
  rfl

end Cert.KernelIdeal.Payload

end
-- ==== Proof.KernelValue.lean ====
/-
  What the kernel leaves in the result array: the cosine distance of the rows of the argument.

  The region finds, beside the argument x itself, its copy in the narrower float format (at the exact
  instance the copy IS x) and the row of norms n(r) = sqrt (0 + sum_k x(r,k)^2).  At grid point (i, j) the body
  is handed rows 1024 i .. 1024 i + 1023 of the copy, the whole copy, of which it reads rows 1024 j .. 1024 j + 1023,
  and the whole row of norms, of which it reads the stretches starting at 1024 i and at 1024 j.  So entry (p, q)
  of the block it stores is the cosine distance of rows 1024 i + p and 1024 j + q, which is entry (p, q) of block
  (i, j) of the whole table of distances.  The 64 blocks tile the result array: the block that holds entry
  (r, c) is the one at (r / 1024, c / 1024).
-/
import proofs.«175760_j15015205667291_2_alg».proof.Proof.FrameKI
import proofs.«175760_j15015205667291_2_alg».proof.Proof.Payload
import Idealize.ShloMosaic.Lib.Pipeline.Value
import Idealize.ShloMosaic.Lib.StableHlo.Run
import Idealize.ShloMosaic.Lib.ValueLayout

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Payload Cert.CosineDistance

variable (m : (ℓ : Loc nD τ sig) → Buf (Elt Ideal) ℓ) (ρ : Dev nD → PrngReg)

/-! ## The two arrays the host operations wrote -/

/-- The format-changed copy is the argument itself. -/
theorem copy_eq (c : Dev nD) :
    (V m c main_v0 : S8192x512.Idx → EReal) = (m ((c : Thread nD τ).loc main_arg0) : S8192x512.Idx → EReal) := by
  dsimp only [V, hostOps0]
  after_results
  rfl

/-- The row of norms, as the host operations compute it: the square roots of the row sums of the squares,
    read as one row. -/
theorem norms_eq (c : Dev nD) :
    (V m c main_v4 : S1x8192.Idx → EReal)
      = shapeCast S1x8192 (Host.sqrt (F := Ideal) (Host.reduceAdd (F := Ideal) (mulf (m ((c : Thread nD τ).loc main_arg0)) (m ((c : Thread nD τ).loc main_arg0)))
          (constant (F := Ideal) S_ .f32 0x00000000#32) reducesTo_S8192x512_S8192_d1 h_S_)) shapeCasts_S8192_S1x8192 := by
  dsimp only [V, hostOps0]
  after_results
  rfl

/-- The sum of the squares of row `r`, onto the zero pattern. -/
theorem sumsq_apply (x : FVec Ideal S8192x512 .f32) (r : Fin 8192) :
    Host.reduceAdd (F := Ideal) (mulf x x) (constant (F := Ideal) S_ .f32 0x00000000#32) reducesTo_S8192x512_S8192_d1 h_S_ (ix1 r)
      = Ideal.ofBits .f32 0x00000000#32 + ∑ k : Fin 512, x (ix2 r k) * x (ix2 r k) := by
  simp only [Host.reduceAdd, Ideal.hostReduceAdd_def]
  rw [Ideal.hostReduceAdd_single reducesTo_S8192x512_S8192_d1 (by decide)]
  refine congrArg₂ (· + ·) rfl (Finset.sum_congr rfl fun k _ => ?_)
  exact congrArg (mulf x x) (funext fun a => Fin.ext (by match a with | ⟨0, _⟩ => rfl | ⟨1, _⟩ => rfl))

/-- The host's square root of a vector, read at an entry. -/
theorem hostSqrt_apply {s : Shape} (v : FVec Ideal s .f32) (i : s.Idx) : Host.sqrt (F := Ideal) v i = Ideal.sqrt (v i) := rfl

/-- The row of norms at (0, r) is the norm of row `r` of the argument. -/
theorem norms_apply (c : Dev nD) (u : Fin 1) (r : Fin 8192) :
    (V m c main_v4 : S1x8192.Idx → EReal) (ix2 u r) = rowNorm (m ((c : Thread nD τ).loc main_arg0)) r := by
  rw [norms_eq, shapeCast_a_1a_apply, hostSqrt_apply, sumsq_apply]
  rfl

/-! ## One entry of one block -/

/-- If the rows and norms the body is handed at entry (p, q) are row `r`, row `c` and their norms, what it
    stores there is the distance of rows `r` and `c`. -/
theorem entry_eq (x : Rows.Idx → EReal) (A B : FVec Ideal S1024x512 .bf16) (na nb : FVec Ideal S1x1024 .f32)
    (r c : Fin 8192) (p q : Fin 1024)
    (hA : ∀ k : Fin 512, A (ix2 p k) = x (ix2 r k)) (hB : ∀ k : Fin 512, B (ix2 q k) = x (ix2 c k))
    (hna : na (ix2 (0 : Fin 1) p) = rowNorm x r) (hnb : nb (ix2 (0 : Fin 1) q) = rowNorm x c) :
    k0_pay1 (F := Ideal) A B na nb (ix2 p q) = cosDist x (ix2 r c) := by
  rw [pay_apply, cosDist_ix2, hna, hnb]
  unfold dotRows
  simp only [hA, hB]

/-! ## What a grid point writes back -/

theorem hzO : (![0, 0] : Fin 2 → Nat) = fun _ => 0 := funext fun a => by fin_cases a <;> rfl

/-- The block indices of the four windows at each grid point, and the ranges of the point's coordinates. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = (grid0.coords t 0).val ∧ win0_3.index t (1 : Fin 2) = (grid0.coords t 1).val
    ∧ (grid0.coords t 0).val < 8 ∧ (grid0.coords t 1).val < 8 :=
  (by decide +kernel : ∀ t : Fin grid0.N, _)

/-- Grid point `t` writes back block `t` of the table of distances of the argument's rows. -/
theorem flushed_eq (c : Dev nD) (t : Fin cfg0.N) :
    (dats m 0 c).flushed 3 t = ((cfg0.win 3).blk t).view.read (Elt Ideal) (cosDist (m ((c : Thread nD τ).loc main_arg0))) := by
  show (cfg0.win 3).cut (grid0.coords t) ((dats m 0 c).after 3 t) = _
  rw [after3]
  unfold outBlock
  rw [View.canon_unit_zero hzO]
  simp only [View.ld_unit_zero (S := S1024x512) hzO]
  obtain ⟨e00, e01, e10, e11, e20, e21, e30, e31, hi, hj⟩ := idx_facts t
  have o10 : k0_off1 (grid0.coords t) (0 : Fin 2) = 1024 * (grid0.coords t 1).val := congrFun (k0_off1_eq (grid0.coords t)) 0
  have o11 : k0_off1 (grid0.coords t) (1 : Fin 2) = 0 := congrFun (k0_off1_eq (grid0.coords t)) 1
  have o20 : k0_off2 (grid0.coords t) (0 : Fin 2) = 0 := congrFun (k0_off2_eq (grid0.coords t)) 0
  have o21 : k0_off2 (grid0.coords t) (1 : Fin 2) = 1024 * (grid0.coords t 0).val := congrFun (k0_off2_eq (grid0.coords t)) 1
  have o30 : k0_off3 (grid0.coords t) (0 : Fin 2) = 0 := congrFun (k0_off3_eq (grid0.coords t)) 0
  have o31 : k0_off3 (grid0.coords t) (1 : Fin 2) = 1024 * (grid0.coords t 1).val := congrFun (k0_off3_eq (grid0.coords t)) 1
  show (fun j : S1024x1024.Idx => k0_pay1 (F := Ideal) (iblk m c 0 t) (View.ld (iblk m c 1 t) (rB (grid0.coords t)))
        (View.ld (iblk m c 2 t) (rNa (grid0.coords t))) (View.ld (iblk m c 2 t) (rNb (grid0.coords t))) j)
      = fun j : S1024x1024.Idx => cosDist (m ((c : Thread nD τ).loc main_arg0)) (((cfg0.win 3).blk t).view.emb j)
  funext j
  obtain ⟨p, q, rfl⟩ : ∃ (p q : Fin 1024), j = ix2 p q := ⟨j 0, j 1, eq_ix2 j⟩
  have hp : p.val < 1024 := p.isLt
  have hq : q.val < 1024 := q.isLt
  have hr : 1024 * (grid0.coords t 0).val + p.val < 8192 := by omega
  have hc : 1024 * (grid0.coords t 1).val + q.val < 8192 := by omega
  refine (entry_eq (m ((c : Thread nD τ).loc main_arg0)) (iblk m c 0 t) (View.ld (iblk m c 1 t) (rB (grid0.coords t)))
    (View.ld (iblk m c 2 t) (rNa (grid0.coords t))) (View.ld (iblk m c 2 t) (rNb (grid0.coords t)))
    ⟨1024 * (grid0.coords t 0).val + p.val, hr⟩ ⟨1024 * (grid0.coords t 1).val + q.val, hc⟩ p q ?_ ?_ ?_ ?_).trans ?_
  · intro k
    refine (congrFun (copy_eq m c) (((cfg0.win 0).blk t).view.emb (ix2 p k))).trans (congrArg (m ((c : Thread nD τ).loc main_arg0)) ?_)
    funext a; apply Fin.ext
    match a with
    | ⟨0, _⟩ => show win0_0.index t (0 : Fin 2) * 1024 + 1 * p.val = 1024 * (grid0.coords t 0).val + p.val; omega
    | ⟨1, _⟩ => show win0_0.index t (1 : Fin 2) * 512 + 1 * k.val = k.val; omega
  · intro k
    refine (congrFun (copy_eq m c) (((cfg0.win 1).blk t).view.emb ((rB (grid0.coords t)).idx (ix2 q k)))).trans (congrArg (m ((c : Thread nD τ).loc main_arg0)) ?_)
    funext a; apply Fin.ext
    match a with
    | ⟨0, _⟩ => show win0_1.index t (0 : Fin 2) * 8192 + 1 * (k0_off1 (grid0.coords t) (0 : Fin 2) + 1 * q.val) = 1024 * (grid0.coords t 1).val + q.val; omega
    | ⟨1, _⟩ => show win0_1.index t (1 : Fin 2) * 512 + 1 * (k0_off1 (grid0.coords t) (1 : Fin 2) + 1 * k.val) = k.val; omega
  · refine (congrArg (V m c main_v4 : S1x8192.Idx → EReal) (?_ : ((cfg0.win 2).blk t).view.emb ((rNa (grid0.coords t)).idx (ix2 (0 : Fin 1) p)) = ix2 (0 : Fin 1) ⟨1024 * (grid0.coords t 0).val + p.val, hr⟩)).trans (norms_apply m c 0 _)
    funext a; apply Fin.ext
    match a with
    | ⟨0, _⟩ => show win0_2.index t (0 : Fin 2) * 1 + 1 * (k0_off2 (grid0.coords t) (0 : Fin 2) + 1 * 0) = 0; omega
    | ⟨1, _⟩ => show win0_2.index t (1 : Fin 2) * 8192 + 1 * (k0_off2 (grid0.coords t) (1 : Fin 2) + 1 * p.val) = 1024 * (grid0.coords t 0).val + p.val; omega
  · refine (congrArg (V m c main_v4 : S1x8192.Idx → EReal) (?_ : ((cfg0.win 2).blk t).view.emb ((rNb (grid0.coords t)).idx (ix2 (0 : Fin 1) q)) = ix2 (0 : Fin 1) ⟨1024 * (grid0.coords t 1).val + q.val, hc⟩)).trans (norms_apply m c 0 _)
    funext a; apply Fin.ext
    match a with
    | ⟨0, _⟩ => show win0_2.index t (0 : Fin 2) * 1 + 1 * (k0_off3 (grid0.coords t) (0 : Fin 2) + 1 * 0) = 0; omega
    | ⟨1, _⟩ => show win0_2.index t (1 : Fin 2) * 8192 + 1 * (k0_off3 (grid0.coords t) (1 : Fin 2) + 1 * q.val) = 1024 * (grid0.coords t 1).val + q.val; omega
  · refine congrArg (cosDist (m ((c : Thread nD τ).loc main_arg0))) ?_
    funext a; apply Fin.ext
    match a with
    | ⟨0, _⟩ => show 1024 * (grid0.coords t 0).val + p.val = win0_3.index t (0 : Fin 2) * 1024 + 1 * p.val; omega
    | ⟨1, _⟩ => show 1024 * (grid0.coords t 1).val + q.val = win0_3.index t (1 : Fin 2) * 1024 + 1 * q.val; omega

/-! ## The blocks tile the result array -/

theorem mem_blk (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- Every pair of block indices is some grid point's. -/
theorem idx_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- Entry (r, c) lies in the block of the grid point at (r / 1024, c / 1024). -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the last write-back the result array holds the table of distances. -/
theorem final (c : Dev nD) : (dats m 0 c).arrAt 3 cfg0.N = cosDist (m ((c : Thread nD τ).loc main_arg0)) :=
  (dats m 0 c).arrAt_eq_of_cover 3 _ (fun t _ => flushed_eq m c t) cover

/-! ## The run, read -/

/-- Every weakly fair execution of the kernel program terminates with the result array at the cosine distance of
    the argument's rows and the argument unchanged. -/
theorem run : θ_run defs (onTc (τ := τ) (main (F := Ideal))) ⟨m, fun _ => 0, ρ⟩ fun r => ∀ c : Dev nD,
      r.2.mem ((c : Thread nD τ).loc main_v5) = cosDist (m ((c : Thread nD τ).loc main_arg0))
      ∧ r.2.mem ((c : Thread nD τ).loc main_arg0) = m ((c : Thread nD τ).loc main_arg0) :=
  (θ_run defs _ _).mono (fun r h c => ⟨((h c).1 3).trans (final m c),
      ((h c).2 main_arg0 (Pipeline.mem_restRefs_of main_arg0 (by decide) (by decide))).trans (V_main_arg0 m c)⟩)
    (run_main m ρ)

end Cert.KernelIdeal.KernelValue

end
-- ==== Proof.RefValue.lean ====
/-
  The reference program computes the cosine distance.

  Read one operation at a time at entry (r, c): the product of the matrix with its transpose is the sum over
  the columns of x(r, k) * x(c, k); the norm vector is the square root of zero plus the row sums of the
  squares; its two broadcasts put the norm of row r and the norm of row c at (r, c); then the larger of
  their product and the small constant, the quotient, and one minus it.
-/
import proofs.«175760_j15015205667291_2_alg».proof.Proof.Gen.ReferenceIdeal.Read
import proofs.«175760_j15015205667291_2_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.CosineDistance

theorem left_at (r c : Fin 8192) (k : Fin 512) : lidx_main_v1 (ix2 r c) k = ix2 r k :=
  funext fun a => Fin.ext (by match a with | ⟨0, _⟩ => rfl | ⟨1, _⟩ => rfl)

theorem right_at (r c : Fin 8192) (k : Fin 512) : idx_main_v0 (ridx_main_v1 (ix2 r c) k) = ix2 c k :=
  funext fun a => Fin.ext (by match a with | ⟨0, _⟩ => rfl | ⟨1, _⟩ => rfl)

theorem rowOf_at (r c : Fin 8192) (k : Fin 512) : idx_main_call0_v1 (idx_main_v3 (idx_main_v5 (ix2 r c))) k = ix2 r k :=
  funext fun a => Fin.ext (by match a with | ⟨0, _⟩ => rfl | ⟨1, _⟩ => rfl)

theorem colOf_at (r c : Fin 8192) (k : Fin 512) : idx_main_call0_v1 (idx_main_v4 (idx_main_v6 (ix2 r c))) k = ix2 c k :=
  funext fun a => Fin.ext (by match a with | ⟨0, _⟩ => rfl | ⟨1, _⟩ => rfl)

/-- The reference's result, as a function of its argument, is the cosine distance. -/
theorem result_eq (x : (⟨S8192x512, .f32⟩ : BufTy).Contents (Elt Ideal)) : val_main_v12 (F := Ideal) x = cosDist x := by
  funext i
  obtain ⟨r, c, rfl⟩ : ∃ (r c : Fin 8192), i = ix2 r c := ⟨i 0, i 1, eq_ix2 i⟩
  rw [val_main_v12_apply, val_main_v11_apply, val_main_cst_0_apply, val_main_v10_apply, val_main_v1_apply, val_main_v9_apply,
    val_main_v7_apply, val_main_v5_apply, val_main_v3_apply, val_main_v6_apply, val_main_v4_apply, val_main_v2_apply,
    val_main_v2_apply, val_main_call0_v1_apply, val_main_call0_v1_apply, val_main_v8_apply, val_main_cst_apply,
    val_main_call0_cst_apply]
  simp only [val_main_v0_apply, val_main_call0_v0_apply, left_at, right_at, rowOf_at, colOf_at]
  rfl

end Cert.ReferenceIdeal.RefValue

end
-- ==== Proof.lean ====
/-
  The pairwise cosine distance of the rows of a matrix: a tiled kernel against the plain formula.

  Both programs compute, for a matrix x of 8192 rows and 512 columns, the table whose entry (r, c) is
  1 - (x_r . x_c) / max (|x_r| * |x_c|, eps).  The reference forms the whole product of x with its transpose, the
  vector of row norms and its two broadcasts.  The kernel forms the norms on the host, then on an 8 x 8 grid computes
  one block of 1024 x 1024 entries per point from 1024 rows of x, 1024 rows of a resident copy of x, and two stretches
  of the norms.  On the extended reals the two tables are equal entry by entry with no algebra beyond re-indexing:
  the change of float format is the identity, the block product into a zero accumulator is the same sum over the
  512 columns as the whole product, and the remaining operations are the same ones in the same order.  Finiteness of
  the input is not needed.

  The three frames (each program terminates without a fault and leaves its argument unchanged) come first: the two
  kernel programs' from the launch of their one region, the reference's from its run as a sequence of host operations.
  The idealization rewrote nothing, so there is nothing to preserve.
-/
import proofs.«175760_j15015205667291_2_alg».proof.Defs
import proofs.«175760_j15015205667291_2_alg».proof.Proof.Gen.Kernel
import proofs.«175760_j15015205667291_2_alg».proof.Proof.Gen.KernelIdeal
import proofs.«175760_j15015205667291_2_alg».proof.Proof.Gen.ReferenceIdeal
import proofs.«175760_j15015205667291_2_alg».proof.Proof.Gen.Pre_finite_inputs
import proofs.«175760_j15015205667291_2_alg».proof.Proof.Gen.ReferenceIdeal.Run
import proofs.«175760_j15015205667291_2_alg».proof.Proof.Gen.ReferenceIdeal.Read
import proofs.«175760_j15015205667291_2_alg».proof.Proof.FrameK
import proofs.«175760_j15015205667291_2_alg».proof.Proof.FrameKI
import proofs.«175760_j15015205667291_2_alg».proof.Proof.KernelValue
import proofs.«175760_j15015205667291_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument, the kernel's result array and the reference's both end at the cosine
    distance of the argument's rows. -/
theorem algebraic : Cert.algebraic_KernelIdeal_ReferenceIdeal := by
  intro m ρ m' ρ' _ hagree
  refine ⟨fun c => Cert.CosineDistance.cosDist (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v12_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
